-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S512x1024 : Shape := ⟨2, ![512, 1024]⟩
abbrev S3072x1024 : Shape := ⟨2, ![3072, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S512x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S128x1024 .f32) (main_arg1 : FVec F S512x1024 .f32) (main_arg2 : FVec F S3072x1024 .f32) (main_arg3 : FVec F S1024 .f32) (main_arg4 : FVec F S1024x512 .f32) (main_arg5 : FVec F S512 .f32) (main_arg6 : FVec F S512x1 .f32) (main_arg7 : FVec F S1 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S128x1024 : Shape := ⟨2, ![128, 1024]⟩
abbrev S512x1024 : Shape := ⟨2, ![512, 1024]⟩
abbrev S3072x1024 : Shape := ⟨2, ![3072, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1024x1024 : Shape := ⟨2, ![1024, 1024]⟩
abbrev S1x1024 : Shape := ⟨2, ![1, 1024]⟩
abbrev S1x512 : Shape := ⟨2, ![1, 512]⟩
abbrev S1x1 : Shape := ⟨2, ![1, 1]⟩
abbrev S128x512 : Shape := ⟨2, ![128, 512]⟩
abbrev S16x1024 : Shape := ⟨2, ![16, 1024]⟩
abbrev S16x128 : Shape := ⟨2, ![16, 128]⟩
abbrev S16x1x1024 : Shape := ⟨3, ![16, 1, 1024]⟩
abbrev S1x128x1024 : Shape := ⟨3, ![1, 128, 1024]⟩
abbrev S16x128x1024 : Shape := ⟨3, ![16, 128, 1024]⟩
abbrev S2048x1024 : Shape := ⟨2, ![2048, 1024]⟩
abbrev S1x1x1024 : Shape := ⟨3, ![1, 1, 1024]⟩
abbrev S2048x512 : Shape := ⟨2, ![2048, 512]⟩
abbrev S16x128x512 : Shape := ⟨3, ![16, 128, 512]⟩
abbrev S1x1x512 : Shape := ⟨3, ![1, 1, 512]⟩
abbrev S128x512x1 : Shape := ⟨3, ![128, 512, 1]⟩

abbrev nBuf : Space → Nat
  | .hbm => 26
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S512x1024, .f32⟩
  | .hbm, ⟨2, _⟩ => ⟨S3072x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x1024, .bf16⟩
  | .hbm, ⟨9, _⟩ => ⟨S512x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x512, .bf16⟩
  | .hbm, ⟨17, _⟩ => ⟨S128x1024, .f32⟩
  | .hbm, ⟨18, _⟩ => ⟨S512x1024, .f32⟩
  | .hbm, ⟨19, _⟩ => ⟨S1x1024, .f32⟩
  | .hbm, ⟨20, _⟩ => ⟨S1x512, .f32⟩
  | .hbm, ⟨21, _⟩ => ⟨S1x1, .f32⟩
  | .hbm, ⟨22, _⟩ => ⟨S512, .f32⟩
  | .hbm, ⟨23, _⟩ => ⟨S1x512, .f32⟩
  | .hbm, ⟨24, _⟩ => ⟨S128x512, .f32⟩
  | .hbm, ⟨25, _⟩ => ⟨S128x512x1, .f32⟩
  | .local _ .vmem, ⟨0, _⟩ => ⟨S16x1024, .f32⟩
  | .local _ .vmem, ⟨1, _⟩ => ⟨S16x1024, .f32⟩
  | .local _ .vmem, ⟨2, _⟩ => ⟨S128x1024, .f32⟩
  | .local _ .vmem, ⟨3, _⟩ => ⟨S128x1024, .f32⟩
  | .local _ .vmem, ⟨4, _⟩ => ⟨S16x1024, .f32⟩
  | .local _ .vmem, ⟨5, _⟩ => ⟨S16x1024, .f32⟩
  | .local _ .vmem, ⟨6, _⟩ => ⟨S128x1024, .f32⟩
  | .local _ .vmem, ⟨7, _⟩ => ⟨S128x1024, .f32⟩
  | .local _ .vmem, ⟨8, _⟩ => ⟨S1024x1024, .bf16⟩
  | .local _ .vmem, ⟨9, _⟩ => ⟨S1x1024, .f32⟩
  | .local _ .vmem, ⟨10, _⟩ => ⟨S1024x512, .bf16⟩
  | .local _ .vmem, ⟨11, _⟩ => ⟨S1x512, .f32⟩
  | .local _ .vmem, ⟨12, _⟩ => ⟨S1x512, .f32⟩
  | .local _ .vmem, ⟨13, _⟩ => ⟨S1x1, .f32⟩
  | .local _ .vmem, ⟨14, _⟩ => ⟨S16x128, .f32⟩
  | .local _ .vmem, ⟨15, _⟩ => ⟨S16x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  shapeCasts_S1024_S1x1024 : S1024.ShapeCasts S1x1024
  shapeCasts_S512_S1x512 : S512.ShapeCasts S1x512
  shapeCasts_S1_S1x1 : S1.ShapeCasts S1x1
  shapeCasts_S512x1_S512 : S512x1.ShapeCasts S512
  inb_S16x1024_S16x1024_0_0 : ∀ a, (![0, 0] : Fin 2 → Nat) a + S16x1024.size a ≤ S16x1024.size a
  h_S16x1024 : 0 < S16x1024.numel
  inb_S128x1024_S128x1024_0_0 : ∀ a, (![0, 0] : Fin 2 → Nat) a + S128x1024.size a ≤ S128x1024.size a
  h_S128x1024 : 0 < S128x1024.numel
  shapeCasts_S16x1024_S16x1x1024 : S16x1024.ShapeCasts S16x1x1024
  shapeCasts_S128x1024_S1x128x1024 : S128x1024.ShapeCasts S1x128x1024
  broadcasts_S16x1x1024_S16x128x1024 : S16x1x1024.Broadcasts S16x128x1024
  broadcasts_S1x128x1024_S16x128x1024 : S1x128x1024.Broadcasts S16x128x1024
  shapeCasts_S16x128x1024_S2048x1024 : S16x128x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16x1024_S16x1024 : S16x1024.ShapeCasts S16x1024
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1024 : S1x1024.ShapeCasts S1024
  shapeCasts_S2048x1024_S16x128x1024 : S2048x1024.ShapeCasts S16x128x1024
  shapeCasts_S1024_S1x1x1024 : S1024.ShapeCasts S1x1x1024
  broadcasts_S1x1x1024_S16x128x1024 : S1x1x1024.Broadcasts S16x128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S512 : S1x512.ShapeCasts S512
  broadcasts_S1x512_S2048x512 : S1x512.Broadcasts S2048x512
  shapeCasts_S2048x512_S16x128x512 : S2048x512.ShapeCasts S16x128x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  shapeCasts_S512_S1x1x512 : S512.ShapeCasts S1x1x512
  broadcasts_S1x1x512_S16x128x512 : S1x1x512.Broadcasts S16x128x512
  reduces_S16x128x512_S16x128 : S16x128x512.Reduces [2] S16x128
  inb_S16x128_S16x128_0_0 : ∀ a, (![0, 0] : Fin 2 → Nat) a + S16x128.size a ≤ S16x128.size a
  h_S16x128 : 0 < S16x128.numel
  bcast_S128x512_S128x512x1_0_1 : S128x512.BroadcastsInDim S128x512x1 (![0, 1] : Fin 2 → Fin S128x512x1.rank)
  dot_S128x1024_S1024x1024_S128x1024_1_0_0_1_n_n_wf : DotDims.WF S128x1024 S1024x1024 S128x1024 [1] [0] [0] [1] [] []
  dot_S512x1024_S1024x1024_S512x1024_1_0_0_1_n_n_wf : DotDims.WF S512x1024 S1024x1024 S512x1024 [1] [0] [0] [1] [] []
  dot_S2048x1024_S1024x1024_S2048x1024_1_0_0_1_n_n_wf : DotDims.WF S2048x1024 S1024x1024 S2048x1024 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S128x1024.size a
  hwx0_0 : ∀ i : grid0.Coords, EltTy.bits .f32 = 32 ∨ (Rect.block (s := S128x1024) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x1024.size a
  hwx0_1 : ∀ i : grid0.Coords, EltTy.bits .f32 = 32 ∨ (Rect.block (s := S512x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S128x1024.size a
  hwx0_2 : ∀ i : grid0.Coords, EltTy.bits .f32 = 32 ∨ (Rect.block (s := S128x1024) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S512x1024.size a
  hwx0_3 : ∀ i : grid0.Coords, EltTy.bits .f32 = 32 ∨ (Rect.block (s := S512x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x128.size a ≤ S128x512.size a
  hwx0_10 : ∀ i : grid0.Coords, EltTy.bits .f32 = 32 ∨ (Rect.block (s := S128x512) S16x128.size (cc0_transform_10 i) (hinb0_10 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S16x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S128x1024 : Shape := ⟨2, ![128, 1024]⟩
abbrev S512x1024 : Shape := ⟨2, ![512, 1024]⟩
abbrev S3072x1024 : Shape := ⟨2, ![3072, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S128x1x1024 : Shape := ⟨3, ![128, 1, 1024]⟩
abbrev S1x512x1024 : Shape := ⟨3, ![1, 512, 1024]⟩
abbrev S128x512x1024 : Shape := ⟨3, ![128, 512, 1024]⟩
abbrev S128x512x3072 : Shape := ⟨3, ![128, 512, 3072]⟩
abbrev S1x1x1024 : Shape := ⟨3, ![1, 1, 1024]⟩
abbrev S_ : Shape := ⟨0, ![]⟩
abbrev S128x512x512 : Shape := ⟨3, ![128, 512, 512]⟩
abbrev S1x1x512 : Shape := ⟨3, ![1, 1, 512]⟩
abbrev S128x512x1 : Shape := ⟨3, ![128, 512, 1]⟩
abbrev S1x1x1 : Shape := ⟨3, ![1, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S512x1024, .f32⟩
  | .hbm, ⟨2, _⟩ => ⟨S3072x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x1x1024, .f32⟩
  | .hbm, ⟨9, _⟩ => ⟨S1x512x1024, .f32⟩
  | .hbm, ⟨10, _⟩ => ⟨S128x512x1024, .f32⟩
  | .hbm, ⟨11, _⟩ => ⟨S128x512x1024, .f32⟩
  | .hbm, ⟨12, _⟩ => ⟨S128x512x1024, .f32⟩
  | .hbm, ⟨13, _⟩ => ⟨S128x512x1024, .f32⟩
  | .hbm, ⟨14, _⟩ => ⟨S128x512x1024, .f32⟩
  | .hbm, ⟨15, _⟩ => ⟨S128x512x3072, .f32⟩
  | .hbm, ⟨16, _⟩ => ⟨S128x512x1024, .f32⟩
  | .hbm, ⟨17, _⟩ => ⟨S1x1x1024, .f32⟩
  | .hbm, ⟨18, _⟩ => ⟨S128x512x1024, .f32⟩
  | .hbm, ⟨19, _⟩ => ⟨S128x512x1024, .f32⟩
  | .hbm, ⟨20, _⟩ => ⟨S_, .f32⟩
  | .hbm, ⟨21, _⟩ => ⟨S128x512x1024, .f32⟩
  | .hbm, ⟨22, _⟩ => ⟨S128x512x1024, .f32⟩
  | .hbm, ⟨23, _⟩ => ⟨S128x512x512, .f32⟩
  | .hbm, ⟨24, _⟩ => ⟨S1x1x512, .f32⟩
  | .hbm, ⟨25, _⟩ => ⟨S128x512x512, .f32⟩
  | .hbm, ⟨26, _⟩ => ⟨S128x512x512, .f32⟩
  | .hbm, ⟨27, _⟩ => ⟨S_, .f32⟩
  | .hbm, ⟨28, _⟩ => ⟨S128x512x512, .f32⟩
  | .hbm, ⟨29, _⟩ => ⟨S128x512x512, .f32⟩
  | .hbm, ⟨30, _⟩ => ⟨S128x512x1, .f32⟩
  | .hbm, ⟨31, _⟩ => ⟨S1x1x1, .f32⟩
  | .hbm, ⟨32, _⟩ => ⟨S128x512x1, .f32⟩
  | .hbm, ⟨33, _⟩ => ⟨S128x512x1, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S512x1024_S1x512x1024_1_2 : S512x1024.BroadcastsInDim S1x512x1024 (![1, 2] : Fin 2 → Fin S1x512x1024.rank)
  bcast_S128x1x1024_S128x512x1024_0_1_2 : S128x1x1024.BroadcastsInDim S128x512x1024 (![0, 1, 2] : Fin 3 → Fin S128x512x1024.rank)
  bcast_S1x512x1024_S128x512x1024_0_1_2 : S1x512x1024.BroadcastsInDim S128x512x1024 (![0, 1, 2] : Fin 3 → Fin S128x512x1024.rank)
  concatenates_S128x512x1024_S128x512x1024_S128x512x1024_S128x512x3072_d2 : Shape.Concatenates [S128x512x1024, S128x512x1024, S128x512x1024] S128x512x3072 2
  bcast_S1024_S1x1x1024_2 : S1024.BroadcastsInDim S1x1x1024 (![2] : Fin 1 → Fin S1x1x1024.rank)
  bcast_S1x1x1024_S128x512x1024_0_1_2 : S1x1x1024.BroadcastsInDim S128x512x1024 (![0, 1, 2] : Fin 3 → Fin S128x512x1024.rank)
  bcast_S_S128x512x1024 : S_.BroadcastsInDim S128x512x1024 (![] : Fin 0 → Fin S128x512x1024.rank)
  bcast_S512_S1x1x512_2 : S512.BroadcastsInDim S1x1x512 (![2] : Fin 1 → Fin S1x1x512.rank)
  bcast_S1x1x512_S128x512x512_0_1_2 : S1x1x512.BroadcastsInDim S128x512x512 (![0, 1, 2] : Fin 3 → Fin S128x512x512.rank)
  bcast_S_S128x512x512 : S_.BroadcastsInDim S128x512x512 (![] : Fin 0 → Fin S128x512x512.rank)
  bcast_S1_S1x1x1_2 : S1.BroadcastsInDim S1x1x1 (![2] : Fin 1 → Fin S1x1x1.rank)
  bcast_S1x1x1_S128x512x1_0_1_2 : S1x1x1.BroadcastsInDim S128x512x1 (![0, 1, 2] : Fin 3 → Fin S128x512x1.rank)
  dot_S128x512x3072_S3072x1024_S128x512x1024_2_0_01_1_n_n_wf : DotDims.WF S128x512x3072 S3072x1024 S128x512x1024 [2] [0] [0, 1] [1] [] []
  dot_S128x512x1024_S1024x512_S128x512x512_2_0_01_1_n_n_wf : DotDims.WF S128x512x1024 S1024x512 S128x512x512 [2] [0] [0, 1] [1] [] []
  dot_S128x512x512_S512x1_S128x512x1_2_0_01_1_n_n_wf : DotDims.WF S128x512x512 S512x1 S128x512x1 [2] [0] [0, 1] [1] [] []

variable [Facts₀]

def dot_S128x512x3072_S3072x1024_S128x512x1024_2_0_01_1_n_n : DotDims S128x512x3072 S3072x1024 S128x512x1024 where
  lhsContracting := [2]
  rhsContracting := [0]
  lhsNonContracting := [0, 1]
  rhsNonContracting := [1]
  lhsBatch := []
  rhsBatch := []
  wf := dot_S128x512x3072_S3072x1024_S128x512x1024_2_0_01_1_n_n_wf
def dot_S128x512x1024_S1024x512_S128x512x512_2_0_01_1_n_n : DotDims S128x512x1024 S1024x512 S128x512x512 where
  lhsContracting := [2]
  rhsContracting := [0]
  lhsNonContracting := [0, 1]
  rhsNonContracting := [1]
  lhsBatch := []
  rhsBatch := []
  wf := dot_S128x512x1024_S1024x512_S128x512x512_2_0_01_1_n_n_wf
def dot_S128x512x512_S512x1_S128x512x1_2_0_01_1_n_n : DotDims S128x512x512 S512x1 S128x512x1 where
  lhsContracting := [2]
  rhsContracting := [0]
  lhsNonContracting := [0, 1]
  rhsNonContracting := [1]
  lhsBatch := []
  rhsBatch := []
  wf := dot_S128x512x512_S512x1_S128x512x1_2_0_01_1_n_n_wf

class Facts : Prop extends Facts₀ where

variable [Facts]
-- ==== Proof.Spec.lean ====
/-
  The scorer both programs compute, as one function of the argument arrays.

  A pair (n, m) of a goal row g(n, ·) and a theorem row t(m, ·), each of 1024 numbers, is scored by a three-layer
  perceptron applied to the 3072 numbers  [ g(n, ·) | t(m, ·) | g(n, ·)·t(m, ·) ]  set end to end:
    a(h)  = Σ_j cat(j)·W1(j, h) + b1(h)                      (1024 hidden units)
    c(k)  = Σ_h max(a(h), 0)·W2(h, k) + b2(k)                 (512 hidden units)
    score = Σ_k max(c(k), 0)·W3(k, 0) + b3(0).
  Because the 3072 inputs are three runs of 1024, the first sum is the sum of three sums of 1024 terms, one per run,
  each against its own third of W1's rows: rows 0–1023 meet g, rows 1024–2047 meet t, rows 2048–3071 meet the
  products. `pre` writes a(h) in that split form (products first, then g's part, then t's part, then the bias) and
  `pre_eq_concat` is the equation with the unsplit form. Only the commutativity and associativity of addition are
  used, so nothing is asked of the numbers: the equation holds on all extended reals.
-/
import Idealize.ShloMosaic.PureOps.Ideal.Laws
import Idealize.ShloMosaic.Lib.ValueIdx

noncomputable section

namespace Cert.Mlp

open Idealize.ShloMosaic Idealize.ShloMosaic.ValueIdx

/-- An [a, b] matrix of extended reals. -/
abbrev Mat (a b : ℕ) := (⟨2, ![a, b]⟩ : Shape).Idx → EReal
/-- An [a] vector of extended reals. -/
abbrev Vect (a : ℕ) := (⟨1, ![a]⟩ : Shape).Idx → EReal

/-- Row e of the first third of a 3072-row matrix. -/
def lo (e : Fin 1024) : Fin 3072 := ⟨e.val, by have := e.isLt; omega⟩
/-- Row e of the second third. -/
def mid (e : Fin 1024) : Fin 3072 := ⟨1024 + e.val, by have := e.isLt; omega⟩
/-- Row e of the last third. -/
def hi (e : Fin 1024) : Fin 3072 := ⟨2048 + e.val, by have := e.isLt; omega⟩

/-- Layers two and three, on the 1024 first-layer values a(·) before their rectifier. -/
def tail (a : Fin 1024 → EReal) (W2 : Fin 1024 → Fin 512 → EReal) (b2 w3 : Fin 512 → EReal) (b3 : EReal) : EReal :=
  (∑ k : Fin 512, max ((∑ h : Fin 1024, max (a h) 0 * W2 h k) + b2 k) 0 * w3 k) + b3

/-- The first-layer value a(h) of the pair (n, m), its sum split by thirds of W1's rows. -/
def pre (g : Mat 128 1024) (t : Mat 512 1024) (W1 : Mat 3072 1024) (b1 : Vect 1024) (n : Fin 128) (m : Fin 512)
    (h : Fin 1024) : EReal :=
  (((∑ e : Fin 1024, (g (ix2 n e) * t (ix2 m e)) * W1 (ix2 (hi e) h)) + ∑ e : Fin 1024, g (ix2 n e) * W1 (ix2 (lo e) h))
    + ∑ e : Fin 1024, t (ix2 m e) * W1 (ix2 (mid e) h)) + b1 (ix1 h)

/-- The score of the pair (n, m). -/
def score (g : Mat 128 1024) (t : Mat 512 1024) (W1 : Mat 3072 1024) (b1 : Vect 1024) (W2 : Mat 1024 512) (b2 : Vect 512)
    (W3 : Mat 512 1) (b3 : Vect 1) (n : Fin 128) (m : Fin 512) : EReal :=
  tail (pre g t W1 b1 n m) (fun h k => W2 (ix2 h k)) (fun k => b2 (ix1 k)) (fun k => W3 (ix2 k 0)) (b3 (ix1 0))

/-- A sum of 3072 terms is the sum of its three runs of 1024. -/
theorem sum_three {M : Type*} [AddCommMonoid M] (f : Fin 3072 → M) :
    ∑ j, f j = ∑ e, f (lo e) + ∑ e, f (mid e) + ∑ e, f (hi e) := by
  have h1 : ∑ j : Fin 3072, f j = ∑ i : Fin 2048, f (Fin.castAdd 1024 i) + ∑ i : Fin 1024, f (Fin.natAdd 2048 i) :=
    Fin.sum_univ_add (a := 2048) (b := 1024) f
  have h2 : ∑ i : Fin 2048, f (Fin.castAdd 1024 i)
      = ∑ i : Fin 1024, f (Fin.castAdd 1024 (Fin.castAdd 1024 i)) + ∑ i : Fin 1024, f (Fin.castAdd 1024 (Fin.natAdd 1024 i)) :=
    Fin.sum_univ_add (a := 1024) (b := 1024) (fun i => f (Fin.castAdd 1024 i))
  rw [h1, h2]
  rfl

/-- The unsplit first-layer sum, over any 3072 numbers that are g(n, ·), t(m, ·) and their products set end to end,
    is the split one. -/
theorem pre_eq_concat (g : Mat 128 1024) (t : Mat 512 1024) (W1 : Mat 3072 1024) (b1 : Vect 1024) (n : Fin 128) (m : Fin 512)
    (h : Fin 1024) (cat : Fin 3072 → EReal) (hlo : ∀ e, cat (lo e) = g (ix2 n e)) (hmid : ∀ e, cat (mid e) = t (ix2 m e))
    (hhi : ∀ e, cat (hi e) = g (ix2 n e) * t (ix2 m e)) :
    (∑ j : Fin 3072, cat j * W1 (ix2 j h)) + b1 (ix1 h) = pre g t W1 b1 n m h := by
  rw [sum_three]
  simp only [hlo, hmid, hhi]
  unfold pre
  rw [add_comm (∑ e : Fin 1024, (g (ix2 n e) * t (ix2 m e)) * W1 (ix2 (hi e) h)) (∑ e : Fin 1024, g (ix2 n e) * W1 (ix2 (lo e) h)),
    add_right_comm (∑ e : Fin 1024, g (ix2 n e) * W1 (ix2 (lo e) h))]

end Cert.Mlp

end
-- ==== Proof.RefScore.lean ====
/-
  The reference computes the score.

  The reference spreads g over the pairs as [128, 512, 1024] (entry (n, m, e) is g(n, e)), t likewise (entry
  (n, m, e) is t(m, e)), multiplies them, and sets the three arrays end to end along the last axis: the 3072 numbers of
  pair (n, m) are g(n, ·), t(m, ·) and their products, in that order. So position e of the first third reads g(n, e),
  position e of the second reads t(m, e), position e of the last reads g(n, e)·t(m, e) — which is what the split of
  the first-layer sum needs. The remaining operations are the perceptron's, one layer after another, read at the
  pair's index: a contraction with the weights, the bias spread over the pairs, the maximum with zero.
-/
import proofs.«119318_j12000138625194_2_alg».proof.Proof.Gen.ReferenceIdeal.Read
import proofs.«119318_j12000138625194_2_alg».proof.Proof.Spec

noncomputable section

namespace Cert.RefScore

open Cert.ReferenceIdeal Cert.ReferenceIdeal.Gen Cert.ReferenceIdeal.Read Idealize.ShloMosaic Idealize.ShloMosaic.ValueIdx Cert.Mlp

variable (x0 : (⟨S128x1024, .f32⟩ : BufTy).Contents (Elt Ideal)) (x1 : (⟨S512x1024, .f32⟩ : BufTy).Contents (Elt Ideal))
  (x2 : (⟨S3072x1024, .f32⟩ : BufTy).Contents (Elt Ideal)) (x3 : (⟨S1024, .f32⟩ : BufTy).Contents (Elt Ideal))
  (x4 : (⟨S1024x512, .f32⟩ : BufTy).Contents (Elt Ideal)) (x5 : (⟨S512, .f32⟩ : BufTy).Contents (Elt Ideal))
  (x6 : (⟨S512x1, .f32⟩ : BufTy).Contents (Elt Ideal)) (x7 : (⟨S1, .f32⟩ : BufTy).Contents (Elt Ideal))

/-- g spread over the pairs: entry (n, m, e) is g(n, e). -/
theorem goal_at (n : Fin 128) (m : Fin 512) (e : Fin 1024) : val_main_v5 (F := Ideal) x0 (ix3 n m e) = x0 (ix2 n e) := by
  rw [val_main_v5_apply, val_main_v0_apply]
  exact congrArg x0 (funext fun a => Fin.ext (by
    match a with
    | ⟨0, _⟩ => rfl
    | ⟨1, _⟩ => rfl))

/-- t spread over the pairs: entry (n, m, e) is t(m, e). -/
theorem thm_at (n : Fin 128) (m : Fin 512) (e : Fin 1024) : val_main_v6 (F := Ideal) x1 (ix3 n m e) = x1 (ix2 m e) := by
  rw [val_main_v6_apply, val_main_v1_apply]
  exact congrArg x1 (funext fun a => Fin.ext (by
    match a with
    | ⟨0, _⟩ => rfl
    | ⟨1, _⟩ => rfl))

/-- Their product: entry (n, m, e) is g(n, e)·t(m, e). -/
theorem prod_at (n : Fin 128) (m : Fin 512) (e : Fin 1024) :
    val_main_v4 (F := Ideal) x0 x1 (ix3 n m e) = x0 (ix2 n e) * x1 (ix2 m e) := by
  rw [val_main_v4_apply, val_main_v2_apply, val_main_v0_apply, val_main_v3_apply, val_main_v1_apply]
  exact congrArg₂ (· * ·)
    (congrArg x0 (funext fun a => Fin.ext (by
      match a with
      | ⟨0, _⟩ => rfl
      | ⟨1, _⟩ => rfl)))
    (congrArg x1 (funext fun a => Fin.ext (by
      match a with
      | ⟨0, _⟩ => rfl
      | ⟨1, _⟩ => rfl)))

/-- The first third of the joined axis holds g(n, ·). -/
theorem cat_lo (n : Fin 128) (m : Fin 512) (e : Fin 1024) : val_main_v7 (F := Ideal) x0 x1 (ix3 n m (lo e)) = x0 (ix2 n e) := by
  unfold val_main_v7
  refine Eq.trans (concatenate_apply_piece (2 : Fin 3) _ _ (ix3 n m (lo e)) 0 ?hk S128x512x1024 (val_main_v5 (F := Ideal) x0) ?hxk ?hr 0 ?hpre
    (ix3 n m e) ?hi ?ha) (goal_at x0 n m e)
  case hk => show (0 : ℕ) < 3; omega
  case hxk => rfl
  case hr => rfl
  case hpre => rfl
  case hi =>
    intro b hb
    match b with
    | ⟨0, _⟩ => rfl
    | ⟨1, _⟩ => rfl
    | ⟨2, _⟩ => exact absurd rfl hb
  case ha => show 0 + e.val = e.val; omega

/-- The second third holds t(m, ·). -/
theorem cat_mid (n : Fin 128) (m : Fin 512) (e : Fin 1024) : val_main_v7 (F := Ideal) x0 x1 (ix3 n m (mid e)) = x1 (ix2 m e) := by
  unfold val_main_v7
  refine Eq.trans (concatenate_apply_piece (2 : Fin 3) _ _ (ix3 n m (mid e)) 1 ?hk S128x512x1024 (val_main_v6 (F := Ideal) x1) ?hxk ?hr 1024 ?hpre
    (ix3 n m e) ?hi ?ha) (thm_at x1 n m e)
  case hk => show (1 : ℕ) < 3; omega
  case hxk => rfl
  case hr => rfl
  case hpre => rfl
  case hi =>
    intro b hb
    match b with
    | ⟨0, _⟩ => rfl
    | ⟨1, _⟩ => rfl
    | ⟨2, _⟩ => exact absurd rfl hb
  case ha => rfl

/-- The last third holds the products. -/
theorem cat_hi (n : Fin 128) (m : Fin 512) (e : Fin 1024) :
    val_main_v7 (F := Ideal) x0 x1 (ix3 n m (hi e)) = x0 (ix2 n e) * x1 (ix2 m e) := by
  unfold val_main_v7
  refine Eq.trans (concatenate_apply_piece (2 : Fin 3) _ _ (ix3 n m (hi e)) 2 ?hk S128x512x1024 (val_main_v4 (F := Ideal) x0 x1) ?hxk ?hr 2048 ?hpre
    (ix3 n m e) ?hi ?ha) (prod_at x0 x1 n m e)
  case hk => show (2 : ℕ) < 3; omega
  case hxk => rfl
  case hr => rfl
  case hpre => rfl
  case hi =>
    intro b hb
    match b with
    | ⟨0, _⟩ => rfl
    | ⟨1, _⟩ => rfl
    | ⟨2, _⟩ => exact absurd rfl hb
  case ha => rfl

/-- The first layer after its rectifier, at the pair (n, m) and hidden unit h. -/
theorem hidden1 (n : Fin 128) (m : Fin 512) (h : Fin 1024) :
    val_main_v12 (F := Ideal) x0 x1 x2 x3 (ix3 n m h) = max (pre x0 x1 x2 x3 n m h) 0 := by
  rw [val_main_v12_apply, val_main_v11_apply, val_main_v8_apply, val_main_v10_apply, val_main_v9_apply,
    val_main_call0_v0_apply, val_main_call0_cst_apply]
  have hl : ∀ j : Fin 3072, lidx_main_v8 (ix3 n m h) j = ix3 n m j := fun j => funext fun a => Fin.ext (by
    match a with
    | ⟨0, _⟩ => rfl
    | ⟨1, _⟩ => rfl
    | ⟨2, _⟩ => rfl)
  have hr : ∀ j : Fin 3072, ridx_main_v8 (ix3 n m h) j = ix2 j h := fun j => funext fun a => Fin.ext (by
    match a with
    | ⟨0, _⟩ => rfl
    | ⟨1, _⟩ => rfl)
  have hb : idx_main_v9 (idx_main_v10 (ix3 n m h)) = ix1 h := funext fun a => Fin.ext (by
    match a with
    | ⟨0, _⟩ => rfl)
  simp only [hl, hr, hb, Ideal.addf_def, Ideal.maximumf_def, Ideal.ofBits_def, Ideal.ofBits_zero_f32]
  rw [pre_eq_concat x0 x1 x2 x3 n m h (fun j => val_main_v7 (F := Ideal) x0 x1 (ix3 n m j)) (cat_lo x0 x1 n m) (cat_mid x0 x1 n m)
    (cat_hi x0 x1 n m)]

/-- The second layer after its rectifier, at the pair (n, m) and hidden unit k. -/
theorem hidden2 (n : Fin 128) (m : Fin 512) (k : Fin 512) :
    val_main_v17 (F := Ideal) x0 x1 x2 x3 x4 x5 (ix3 n m k)
      = max ((∑ h : Fin 1024, max (pre x0 x1 x2 x3 n m h) 0 * x4 (ix2 h k)) + x5 (ix1 k)) 0 := by
  rw [val_main_v17_apply, val_main_v16_apply, val_main_v13_apply, val_main_v15_apply, val_main_v14_apply,
    val_main_call1_v0_apply, val_main_call1_cst_apply]
  have hl : ∀ h : Fin 1024, lidx_main_v13 (ix3 n m k) h = ix3 n m h := fun h => funext fun a => Fin.ext (by
    match a with
    | ⟨0, _⟩ => rfl
    | ⟨1, _⟩ => rfl
    | ⟨2, _⟩ => rfl)
  have hr : ∀ h : Fin 1024, ridx_main_v13 (ix3 n m k) h = ix2 h k := fun h => funext fun a => Fin.ext (by
    match a with
    | ⟨0, _⟩ => rfl
    | ⟨1, _⟩ => rfl)
  have hb : idx_main_v14 (idx_main_v15 (ix3 n m k)) = ix1 k := funext fun a => Fin.ext (by
    match a with
    | ⟨0, _⟩ => rfl)
  simp only [hl, hr, hb, hidden1 x0 x1 x2 x3, Ideal.addf_def, Ideal.maximumf_def, Ideal.ofBits_def, Ideal.ofBits_zero_f32]

/-- The reference's result at the pair (n, m) is the score. -/
theorem ref_score (n : Fin 128) (m : Fin 512) (u : Fin 1) :
    val_main_v21 (F := Ideal) x0 x1 x2 x3 x4 x5 x6 x7 (ix3 n m u) = score x0 x1 x2 x3 x4 x5 x6 x7 n m := by
  rw [val_main_v21_apply, val_main_v18_apply, val_main_v20_apply, val_main_v19_apply]
  have hl : ∀ k : Fin 512, lidx_main_v18 (ix3 n m u) k = ix3 n m k := fun k => funext fun a => Fin.ext (by
    match a with
    | ⟨0, _⟩ => rfl
    | ⟨1, _⟩ => rfl
    | ⟨2, _⟩ => rfl)
  have hr : ∀ k : Fin 512, ridx_main_v18 (ix3 n m u) k = ix2 k (0 : Fin 1) := fun k => funext fun a => Fin.ext (by
    match a with
    | ⟨0, _⟩ => rfl
    | ⟨1, _⟩ => show u.val = 0; have := u.isLt; omega)
  have hb : idx_main_v19 (idx_main_v20 (ix3 n m u)) = ix1 (0 : Fin 1) := funext fun a => Fin.ext (by
    match a with
    | ⟨0, _⟩ => rfl)
  simp only [hl, hr, hb, hidden2 x0 x1 x2 x3 x4 x5, Ideal.addf_def]
  rfl

end Cert.RefScore

end
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.KernelTile.lean ====
/-
  What the kernel body stores, read at an entry of its tile.

  At a grid point the body holds a tile of 16 goal rows x0 and 128 theorem rows x1 (each of 1024 numbers), the
  matching 16 and 128 rows x2, x3 of the two products g·W1[0:1024] and t·W1[1024:2048] computed before the call, the
  last third x4 of W1, and the small operands: the biases as rows x5, x7, x9, the second weight matrix x6, and the
  third layer's weights as a row x8. It forms the 16·128 products of a goal row with a theorem row as a [2048, 1024]
  matrix — pair (p, q) in row p·128 + q —, multiplies by x4, unfolds the result to [16, 128, 1024] to add row p of x2,
  row q of x3 and the bias, rectifies, folds back to [2048, 1024] for the second layer, and finishes with a
  multiply by x8 and a sum along the last axis. So the entry (p, q) it stores is the perceptron's last two layers
  applied to the first-layer values
      a(h) = Σ_e (x0(p, e)·x1(q, e))·x4(e, h) + x2(p, h) + x3(q, h) + x5(0, h).
-/
import proofs.«119318_j12000138625194_2_alg».proof.Proof.Gen.KernelIdeal.Frame
import proofs.«119318_j12000138625194_2_alg».proof.Proof.Spec
import proofs.«119318_j12000138625194_2_alg».proof.Proof.LibRank3
import proofs.«119318_j12000138625194_2_alg».proof.Proof.LibPlainMatmul
import Idealize.ShloMosaic.Lib.ValueLayout
import Idealize.ShloMosaic.Lib.Pipeline.Value

noncomputable section

namespace Cert.KernelTile

open Cert.KernelIdeal Cert.KernelIdeal.Gen Idealize.ShloMosaic Idealize.ShloMosaic.ValueIdx Cert.Mlp Cert.LibRank3

/-- The zero word is the number zero. -/
theorem zero_word : Scalar.ofBits (F := Ideal) .f32 0x00000000#32 = (0 : EReal) := Ideal.ofBits_zero_f32

/-- Both products of the body are ordinary matrix products. -/
theorem dims1 : dot_S2048x1024_S1024x1024_S2048x1024_1_0_0_1_n_n = DotDims.plain 2048 1024 1024 := rfl
theorem dims2 : dot_S2048x1024_S1024x512_S2048x512_1_0_0_1_n_n = DotDims.plain 2048 1024 512 := rfl

/-- The first-layer value a(h) of the tile's pair (p, q), before its rectifier. -/
def tilePre (x0 : S16x1024.Idx → EReal) (x1 : S128x1024.Idx → EReal) (x2 : S16x1024.Idx → EReal) (x3 : S128x1024.Idx → EReal)
    (x4 : S1024x1024.Idx → EReal) (x5 : S1x1024.Idx → EReal) (p : Fin 16) (q : Fin 128) (h : Fin 1024) : EReal :=
  (((∑ e : Fin 1024, (x0 (ix2 p e) * x1 (ix2 q e)) * x4 (ix2 e h)) + x2 (ix2 p h)) + x3 (ix2 q h)) + x5 (ix2 (0 : Fin 1) h)

/-- The score the tile stores at (p, q). -/
def tileScore (x0 : S16x1024.Idx → EReal) (x1 : S128x1024.Idx → EReal) (x2 : S16x1024.Idx → EReal) (x3 : S128x1024.Idx → EReal)
    (x4 : S1024x1024.Idx → EReal) (x5 : S1x1024.Idx → EReal) (x6 : S1024x512.Idx → EReal) (x7 : S1x512.Idx → EReal)
    (x8 : S1x512.Idx → EReal) (x9 : S1x1.Idx → EReal) (p : Fin 16) (q : Fin 128) : EReal :=
  tail (tilePre x0 x1 x2 x3 x4 x5 p q) (fun h k => x6 (ix2 h k)) (fun k => x7 (ix2 (0 : Fin 1) k)) (fun k => x8 (ix2 (0 : Fin 1) k))
    (x9 (ix2 (0 : Fin 1) (0 : Fin 1)))

/-- The second layer's product, before its bias: row p·128 + q, column k. -/
theorem pay3_at (v0 : Vec Ideal S16x1024 .f32) (v1 : Vec Ideal S128x1024 .f32) (v9 : Vec Ideal S1024x1024 .bf16)
    (v12 : Vec Ideal S16x1024 .f32) (v14 : Vec Ideal S128x1024 .f32) (v16 : Vec Ideal S1x1024 .f32)
    (v33 : Vec Ideal S1024x512 .bf16) (p : Fin 16) (q : Fin 128) (k : Fin 512) :
    k0_pay3 (F := Ideal) v0 v1 v9 v12 v14 v16 v33 (ix2 (flat 2048 rfl p q) k)
      = ∑ h : Fin 1024, max (tilePre v0 v1 v12 v14 v9 v16 p q h) 0 * v33 (ix2 h k) := by
  unfold k0_pay3
  simp only [matmul, dims1, dims2]
  refine (matmul_plain_zero_apply 2048 1024 512 none _ _ (flat 2048 rfl p q) k).trans ?_
  refine Finset.sum_congr rfl fun h _ => ?_
  simp only [truncf_apply, shapeCast_self, cast_abc_nc (a := 16) (b := 128) 2048 rfl, maximumf_apply, broadcast_apply, zero_word,
    addf_apply, cast_nc_abc (a := 16) (b := 128) 2048 rfl, matmul_plain_zero_apply, mulf_apply,
    bcast_a1c_abc (u := (0 : Fin 1)), bcast_1bc_abc (u := (0 : Fin 1)), bcast_11c_abc (u := (0 : Fin 1)) (u' := (0 : Fin 1)),
    cast_ac_a1c, shapeCast_ab_1ab_apply, cast_c_11c, shapeCast_1a_a_apply]
  rfl

/-- The second bias as a vector: entry k is entry (0, k) of the row. -/
theorem pay2_at (v35 : Vec Ideal S1x512 .f32) (k : Fin 512) : k0_pay2 (F := Ideal) v35 (ix1 k) = v35 (ix2 (0 : Fin 1) k) := by
  unfold k0_pay2
  simp only [shapeCast_self, shapeCast_1a_a_apply]

/-- The stored value at (p, q), from the second layer's product v38 and bias v37. -/
theorem pay1_at (v37 : FVec Ideal S512 .f32) (v38 : FVec Ideal S2048x512 .f32) (v45 : Vec Ideal S1x512 .f32) (v48 : Vec Ideal S1x1 .f32)
    (p : Fin 16) (q : Fin 128) :
    k0_pay1 (F := Ideal) v37 v38 v45 v48 (ix2 p q)
      = (∑ k : Fin 512, max (v38 (ix2 (flat 2048 rfl p q) k) + v37 (ix1 k)) 0 * v45 (ix2 (0 : Fin 1) k))
        + v48 (ix2 (0 : Fin 1) (0 : Fin 1)) := by
  unfold k0_pay1
  have hx : (fun a : Fin S1x1.rank => (⟨(![0, 0] : Fin 2 → ℕ) a, inpos_S1x1_p0_0 a⟩ : Fin (S1x1.size a))) = ix2 (0 : Fin 1) (0 : Fin 1) :=
    funext fun a => Fin.ext (by
      match a with
      | ⟨0, _⟩ => rfl
      | ⟨1, _⟩ => rfl)
  simp only [addf_apply, broadcast_apply, shapeCast_self, extractAt, hx]
  refine congrArg (· + v48 (ix2 (0 : Fin 1) (0 : Fin 1))) ?_
  refine (lane_sum _ _ _ _ _ p q).trans ?_
  refine Finset.sum_congr rfl fun k _ => ?_
  simp only [addf_apply, broadcast_apply, mulf_apply, cast_nc_abc (a := 16) (b := 128) 2048 rfl, maximumf_apply, zero_word,
    broadcastTo_1b_ab_apply, shapeCast_a_1a_apply, bcast_11c_abc (u := (0 : Fin 1)) (u' := (0 : Fin 1)), cast_c_11c,
    shapeCast_1a_a_apply, shapeCast_self]

/-- What the body leaves in the output's buffer, at (p, q): the tile's score. -/
theorem out_at (x0 : Vec Ideal S16x1024 .f32) (x1 : Vec Ideal S128x1024 .f32) (x2 : Vec Ideal S16x1024 .f32)
    (x3 : Vec Ideal S128x1024 .f32) (x4 : Vec Ideal S1024x1024 .bf16) (x5 : Vec Ideal S1x1024 .f32) (x6 : Vec Ideal S1024x512 .bf16)
    (x7 : Vec Ideal S1x512 .f32) (x8 : Vec Ideal S1x512 .f32) (x9 : Vec Ideal S1x1 .f32) (p : Fin 16) (q : Fin 128) :
    out0_10 (F := Ideal) x0 x1 x2 x3 x4 x5 x6 x7 x8 x9 (ix2 p q) = tileScore x0 x1 x2 x3 x4 x5 x6 x7 x8 x9 p q := by
  have hz : (![0, 0] : Fin 2 → ℕ) = fun _ => 0 := funext fun a => by fin_cases a <;> rfl
  unfold out0_10
  rw [View.canon_unit_zero hz]
  simp only [View.ld_unit_zero (S := S16x1024) hz, View.ld_unit_zero (S := S128x1024) hz, View.ld_unit_zero (S := S1024x1024) hz,
    View.ld_unit_zero (S := S1x1024) hz, View.ld_unit_zero (S := S1024x512) hz, View.ld_unit_zero (S := S1x512) hz,
    View.ld_unit_zero (S := S1x1) hz]
  rw [pay1_at]
  simp only [pay3_at, pay2_at]
  rfl

end Cert.KernelTile

end
-- ==== Proof.LibRowRead.lean ====
/-
  Rows of matrices, read through the operations a row-wise network is printed with, at the ideal values.

  A value of shape [A, n] is read one row at a time: `rowOf X p` is row `p` as a function of the column, and
  `mat W` is a weight matrix as a function of row and column. Each lemma says what one operation does to a row:
  a plain matrix product (a kernel's `tpu.matmul` into the zero accumulator, the host's `dot_general`) is the
  linear layer `j ↦ Σ_i h i · W i j` of the row; a maximum with the zero splat is the rectifier of the row; a
  change of float format and a shape cast to the same shape change nothing; a slice of columns takes those columns
  of the row; two matrices set side by side give the first's row followed by the second's.
-/
import Idealize.ShloMosaic.PureOps.Ideal.Laws
import Idealize.ShloMosaic.Lib.ValueIdx
import Idealize.ShloMosaic.Lib.Pipeline.Value
import proofs.«119318_j12000138625194_2_alg».proof.Proof.LibPlainMatmul

noncomputable section

namespace RowRead

open Idealize.ShloMosaic Idealize.ShloMosaic.ValueIdx Finset

/-- Row `p` of an [A, n] value, as a function of the column. -/
def rowOf {A n : ℕ} (X : (⟨2, ![A, n]⟩ : Shape).Idx → EReal) (p : Fin A) : Fin n → EReal := fun k => X (ix2 p k)

/-- A matrix as a function of row and column. -/
def mat {a b : ℕ} (W : (⟨2, ![a, b]⟩ : Shape).Idx → EReal) : Fin a → Fin b → EReal := fun i j => W (ix2 i j)

/-- Three matrices of one shape, by their place. -/
def mats3 {a b : ℕ} (u0 u1 u2 : (⟨2, ![a, b]⟩ : Shape).Idx → EReal) : Fin 3 → Fin a → Fin b → EReal :=
  fun n => mat (![u0, u1, u2] n)

/-- A kernel's plain [A, K] × [K, B] product into the zero accumulator: row `p` is the linear layer of the left
    operand's row `p`. -/
theorem rowOf_matmul {A K B : ℕ} {φ₁ φ₂ : FTy} (D : DotDims ⟨2, ![A, K]⟩ ⟨2, ![K, B]⟩ ⟨2, ![A, B]⟩) (hD : D = DotDims.plain A K B)
    (prec : Option ContractPrecision) (lhs : FVec Ideal ⟨2, ![A, K]⟩ φ₁) (rhs : FVec Ideal ⟨2, ![K, B]⟩ φ₂) (p : Fin A) :
    rowOf (FloatOps.matmul D prec lhs rhs (constant ⟨2, ![A, B]⟩ .f32 0x00000000#32)) p = fun j => ∑ i, rowOf lhs p i * mat rhs i j := by
  subst hD
  funext j
  exact matmul_plain_zero_apply A K B prec lhs rhs p j

/-- The host's plain [A, K] × [K, B] `dot_general`: the same. -/
theorem rowOf_dotGeneral {A K B : ℕ} {φ₁ φ₂ : FTy} (D : DotDims ⟨2, ![A, K]⟩ ⟨2, ![K, B]⟩ ⟨2, ![A, B]⟩) (hD : D = DotDims.plain A K B)
    (prec : Option ContractPrecision) (sched : HostSchedule) (lhs : FVec Ideal ⟨2, ![A, K]⟩ φ₁) (rhs : FVec Ideal ⟨2, ![K, B]⟩ φ₂) (p : Fin A) :
    rowOf (FloatOps.dotGeneral D prec sched lhs rhs) p = fun j => ∑ i, rowOf lhs p i * mat rhs i j := by
  subst hD
  funext j
  show FloatOps.dotGeneral (DotDims.plain A K B) prec sched lhs rhs (ix2 p j) = ∑ k : Fin K, lhs (ix2 p k) * rhs (ix2 k j)
  rw [Ideal.dotGeneral_apply, ← Equiv.sum_comp (contrEquiv1 (DotDims.plain A K B) K rfl rfl).symm]
  refine sum_congr rfl fun k _ => ?_
  rw [plain_lhsIdx, plain_rhsIdx]

/-- A maximum with a value that is zero everywhere is the rectifier of the row. -/
theorem rowOf_max_zero {A n : ℕ} (v z : (⟨2, ![A, n]⟩ : Shape).Idx → EReal) (hz : ∀ i, z i = 0) (p : Fin A) :
    rowOf (fun i => max (v i) (z i)) p = fun j => max (rowOf v p j) 0 := by
  funext j
  show max (v (ix2 p j)) (z (ix2 p j)) = max (v (ix2 p j)) 0
  rw [hz]

/-- A kernel's maximum with the splat of a scalar that is zero: the rectifier of the row. -/
theorem rowOf_max_splat {A n : ℕ} {φ : FTy} (v : FVec Ideal ⟨2, ![A, n]⟩ φ) (z : Ideal φ) (hz : z = (0 : EReal)) (p : Fin A) :
    rowOf (maximumf v (broadcast ⟨2, ![A, n]⟩ z)) p = fun j => max (rowOf v p j) 0 :=
  rowOf_max_zero v (broadcast ⟨2, ![A, n]⟩ z) (fun _ => hz) p

/-- The host's maximum with a scalar zero constant broadcast to the shape: the same. -/
theorem rowOf_max_host {A n : ℕ} (v : FVec Ideal ⟨2, ![A, n]⟩ .f32)
    (hb : (⟨0, ![]⟩ : Shape).BroadcastsInDim ⟨2, ![A, n]⟩ (![] : Fin 0 → Fin 2)) (p : Fin A) :
    rowOf (maximumf v (broadcastInDim ⟨2, ![A, n]⟩ ![] hb (constant (F := Ideal) ⟨0, ![]⟩ .f32 0x00000000#32))) p
      = fun j => max (rowOf v p j) 0 :=
  rowOf_max_zero v _ (fun i => by
    rw [broadcastInDim_apply ![] hb _ i ix0 (fun a => a.elim0)]
    exact Ideal.ofBits_zero_f32) p

/-- A change of float format changes nothing. -/
theorem rowOf_truncf {A n : ℕ} {φ ψ : FTy} (v : FVec Ideal ⟨2, ![A, n]⟩ φ) (h : ψ.bits < φ.bits) (p : Fin A) :
    rowOf (truncf ψ v h : FVec Ideal ⟨2, ![A, n]⟩ ψ) p = rowOf v p := rfl

/-- A slice of `n` columns from column `o` on takes those columns of the row. -/
theorem rowOf_slice {A N n : ℕ} (o : ℕ) (ho : o + n ≤ N) (X : (⟨2, ![A, N]⟩ : Shape).Idx → EReal)
    (h : (⟨2, ![A, N]⟩ : Shape).Slices ![0, o] ⟨2, ![A, n]⟩) (p : Fin A) :
    rowOf (extractStridedSlice ⟨2, ![A, n]⟩ ![0, o] X h) p = fun k => rowOf X p ⟨o + k.val, by have := k.isLt; omega⟩ := by
  funext k
  exact extractStridedSlice_apply ![0, o] X h (ix2 p k) (ix2 p ⟨o + k.val, by have := k.isLt; omega⟩) (fun a => by
    match a with
    | ⟨0, _⟩ => show p.val = 0 + p.val; omega
    | ⟨1, _⟩ => rfl)

/-- A slice of the first `n` columns. -/
theorem rowOf_slice_front {A N n : ℕ} (ho : n ≤ N) (X : (⟨2, ![A, N]⟩ : Shape).Idx → EReal)
    (h : (⟨2, ![A, N]⟩ : Shape).Slices ![0, 0] ⟨2, ![A, n]⟩) (p : Fin A) :
    rowOf (extractStridedSlice ⟨2, ![A, n]⟩ ![0, 0] X h) p = fun k => rowOf X p ⟨k.val, by have := k.isLt; omega⟩ := by
  rw [rowOf_slice 0 (by omega)]
  funext k
  exact congrArg (fun q => X (ix2 p q)) (Fin.ext (Nat.zero_add _))

/-- Two matrices set side by side: the first's row, then the second's. -/
theorem rowOf_beside {A n₁ n₂ N : ℕ} (x₁ : (⟨2, ![A, n₁]⟩ : Shape).Idx → EReal) (x₂ : (⟨2, ![A, n₂]⟩ : Shape).Idx → EReal)
    (h : Shape.Concatenates [(⟨2, ![A, n₁]⟩ : Shape), ⟨2, ![A, n₂]⟩] ⟨2, ![A, N]⟩ 1) (hN : n₁ + n₂ = N) (p : Fin A) :
    rowOf (concatenate ⟨2, ![A, N]⟩ 1 [⟨⟨2, ![A, n₁]⟩, x₁⟩, ⟨⟨2, ![A, n₂]⟩, x₂⟩] h) p
      = fun k => if hk : k.val < n₁ then rowOf x₁ p ⟨k.val, hk⟩ else rowOf x₂ p ⟨k.val - n₁, by have := k.isLt; omega⟩ := by
  funext k
  by_cases hk : k.val < n₁
  · rw [dif_pos hk]
    exact concatenate_pair_apply_left 1 x₁ x₂ h (ix2 p k) rfl (ix2 p ⟨k.val, hk⟩) (fun b => by
      match b with
      | ⟨0, _⟩ => rfl
      | ⟨1, _⟩ => rfl)
  · rw [dif_neg hk]
    exact concatenate_pair_apply_right 1 x₁ x₂ h (ix2 p k) rfl rfl (ix2 p ⟨k.val - n₁, by have := k.isLt; omega⟩) (fun b hb => by
      match b with
      | ⟨0, _⟩ => rfl
      | ⟨1, _⟩ => exact absurd rfl hb) (by show k.val - n₁ + n₁ = k.val; omega)

end RowRead

end
-- ==== Proof.Staged.lean ====
/-
  The arrays the kernel is launched on, entry by entry, in terms of the program's arguments.

  Before the call the program prepares ten operands from its eight arguments g, t, W1, b1, W2, b2, W3, b3: the goal
  and theorem matrices themselves; the two products G1 = g·W1[0:1024] and T1 = t·W1[1024:2048] of each with its
  third of W1's rows; the last third W1[2048:3072]; W2; and the three biases and the third layer's one column of
  weights laid out as rows [1, n]. Changes of float format are the identity on the extended reals, so
      G1(n, h) = Σ_e g(n, e)·W1(e, h),   T1(m, h) = Σ_e t(m, e)·W1(1024 + e, h),   W1m(e, h) = W1(2048 + e, h),
  and the row layouts keep their entries: b1row(0, h) = b1(h), b2row(0, k) = b2(k), w3row(0, k) = W3(k, 0),
  b3row(0, 0) = b3(0).
-/
import proofs.«119318_j12000138625194_2_alg».proof.Proof.Gen.KernelIdeal.Frame
import proofs.«119318_j12000138625194_2_alg».proof.Proof.Spec
import proofs.«119318_j12000138625194_2_alg».proof.Proof.LibRowRead
import Idealize.ShloMosaic.Lib.ValueLayout
import Idealize.ShloMosaic.Lib.Pipeline.Value
import Idealize.ShloMosaic.Lib.StableHlo.Run

noncomputable section

namespace Cert.Staged

open Cert.KernelIdeal Cert.KernelIdeal.Gen Idealize.ShloMosaic Idealize.ShloMosaic.TcCoe Idealize.ShloMosaic.ValueIdx
  Idealize.ShloMosaic.StableHlo Idealize.SL.Sem Cert.Mlp

variable (m : (ℓ : Loc nD τ sig) → Buf (Elt Ideal) ℓ) (c : Dev nD)

/-! ## The arguments as launched -/

/-- The goal rows g. -/
abbrev aG : FVec Ideal S128x1024 .f32 := m ((c : Thread nD τ).loc main_arg0)
/-- The theorem rows t. -/
abbrev aT : FVec Ideal S512x1024 .f32 := m ((c : Thread nD τ).loc main_arg1)
/-- The first layer's weights W1. -/
abbrev aW1 : FVec Ideal S3072x1024 .f32 := m ((c : Thread nD τ).loc main_arg2)
/-- The first bias b1. -/
abbrev ab1 : FVec Ideal S1024 .f32 := m ((c : Thread nD τ).loc main_arg3)
/-- The second layer's weights W2. -/
abbrev aW2 : FVec Ideal S1024x512 .f32 := m ((c : Thread nD τ).loc main_arg4)
/-- The second bias b2. -/
abbrev ab2 : FVec Ideal S512 .f32 := m ((c : Thread nD τ).loc main_arg5)
/-- The third layer's weights W3, one column. -/
abbrev aW3 : FVec Ideal S512x1 .f32 := m ((c : Thread nD τ).loc main_arg6)
/-- The third bias b3. -/
abbrev ab3 : FVec Ideal S1 .f32 := m ((c : Thread nD τ).loc main_arg7)

/-! ## Small reads -/

/-- The host's plain [A, K] × [K, B] product at (p, j): Σ_i L(p, i)·R(i, j). -/
theorem hostDot_at {A K B : ℕ} {φ₁ φ₂ : FTy} (D : DotDims ⟨2, ![A, K]⟩ ⟨2, ![K, B]⟩ ⟨2, ![A, B]⟩) (hD : D = DotDims.plain A K B)
    (lhs : FVec Ideal ⟨2, ![A, K]⟩ φ₁) (rhs : FVec Ideal ⟨2, ![K, B]⟩ φ₂) (p : Fin A) (j : Fin B) :
    Host.dotGeneral (F := Ideal) D none lhs rhs (ix2 p j) = ∑ i : Fin K, lhs (ix2 p i) * rhs (ix2 i j) :=
  congrFun (RowRead.rowOf_dotGeneral D hD none _ lhs rhs p) j

/-- A run of 1024 rows of W1 from row o, after the change of format: entry (e, h) is W1(r, h) with r = o + e. -/
theorem third_at (o : ℕ) (X : FVec Ideal S3072x1024 .f32) (hs : S3072x1024.Slices ![o, 0] S1024x1024) (e h : Fin 1024) (r : Fin 3072)
    (hr : r.val = o + e.val) :
    (truncf .bf16 (extractStridedSlice S1024x1024 ![o, 0] X hs) bitsLt_bf16_f32 : FVec Ideal S1024x1024 .bf16) (ix2 e h) = X (ix2 r h) :=
  slice2_axis0_apply o X hs e h r hr

/-- A column [a, 1] read as a vector [a]: entry i is entry (i, 0). -/
theorem cast_a1_a {α : Type} {a : ℕ} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The ten operands at region entry -/

/-- G1 = g·W1[0:1024]. -/
theorem G1_at (n : Fin 128) (h : Fin 1024) :
    (V m c main_v9 : S128x1024.Idx → EReal) (ix2 n h) = ∑ e : Fin 1024, aG m c (ix2 n e) * aW1 m c (ix2 (lo e) h) := by
  have e0 : (V m c main_v9 : S128x1024.Idx → EReal)
      = Host.dotGeneral (F := Ideal) dot_S128x1024_S1024x1024_S128x1024_1_0_0_1_n_n none (truncf .bf16 (aG m c) bitsLt_bf16_f32)
          (truncf .bf16 (extractStridedSlice S1024x1024 ![0, 0] (aW1 m c) slices_S3072x1024_S1024x1024_0_0) bitsLt_bf16_f32) := by
    show StableHlo.after (hostOps0 (F := Ideal)) (fun b => m (c, b)) (Proc.devRef .tc main_v9) = _
    after_results <;> rfl
  refine (congrFun e0 (ix2 n h)).trans ?_
  refine (hostDot_at _ rfl _ _ n h).trans ?_
  refine Finset.sum_congr rfl fun e _ => ?_
  rw [third_at 0 (aW1 m c) slices_S3072x1024_S1024x1024_0_0 e h (lo e) (by show e.val = 0 + e.val; omega)]
  rfl

/-- T1 = t·W1[1024:2048]. -/
theorem T1_at (n : Fin 512) (h : Fin 1024) :
    (V m c main_v10 : S512x1024.Idx → EReal) (ix2 n h) = ∑ e : Fin 1024, aT m c (ix2 n e) * aW1 m c (ix2 (mid e) h) := by
  have e0 : (V m c main_v10 : S512x1024.Idx → EReal)
      = Host.dotGeneral (F := Ideal) dot_S512x1024_S1024x1024_S512x1024_1_0_0_1_n_n none (truncf .bf16 (aT m c) bitsLt_bf16_f32)
          (truncf .bf16 (extractStridedSlice S1024x1024 ![1024, 0] (aW1 m c) slices_S3072x1024_S1024x1024_1024_0) bitsLt_bf16_f32) := by
    show StableHlo.after (hostOps0 (F := Ideal)) (fun b => m (c, b)) (Proc.devRef .tc main_v10) = _
    after_results <;> rfl
  refine (congrFun e0 (ix2 n h)).trans ?_
  refine (hostDot_at _ rfl _ _ n h).trans ?_
  refine Finset.sum_congr rfl fun e _ => ?_
  rw [third_at 1024 (aW1 m c) slices_S3072x1024_S1024x1024_1024_0 e h (mid e) rfl]
  rfl

/-- W1m = W1[2048:3072]. -/
theorem W1m_at (e h : Fin 1024) : (V m c main_v7 : S1024x1024.Idx → EReal) (ix2 e h) = aW1 m c (ix2 (hi e) h) := by
  have e0 : (V m c main_v7 : S1024x1024.Idx → EReal)
      = (truncf .bf16 (extractStridedSlice S1024x1024 ![2048, 0] (aW1 m c) slices_S3072x1024_S1024x1024_2048_0) bitsLt_bf16_f32
          : FVec Ideal S1024x1024 .bf16) := by
    show StableHlo.after (hostOps0 (F := Ideal)) (fun b => m (c, b)) (Proc.devRef .tc main_v7) = _
    after_results <;> rfl
  refine (congrFun e0 (ix2 e h)).trans ?_
  exact third_at 2048 (aW1 m c) slices_S3072x1024_S1024x1024_2048_0 e h (hi e) rfl

/-- The first bias as a row. -/
theorem b1_at (h : Fin 1024) : (V m c main_v11 : S1x1024.Idx → EReal) (ix2 (0 : Fin 1) h) = ab1 m c (ix1 h) := by
  have e0 : (V m c main_v11 : S1x1024.Idx → EReal) = shapeCast S1x1024 (ab1 m c) shapeCasts_S1024_S1x1024 := by
    show StableHlo.after (hostOps0 (F := Ideal)) (fun b => m (c, b)) (Proc.devRef .tc main_v11) = _
    after_results <;> rfl
  refine (congrFun e0 (ix2 (0 : Fin 1) h)).trans ?_
  exact shapeCast_a_1a_apply (ab1 m c) shapeCasts_S1024_S1x1024 0 h

/-- W2, unchanged by the change of format. -/
theorem W2_at (h : Fin 1024) (k : Fin 512) : (V m c main_v8 : S1024x512.Idx → EReal) (ix2 h k) = aW2 m c (ix2 h k) := by
  have e0 : (V m c main_v8 : S1024x512.Idx → EReal) = aW2 m c := by
    show StableHlo.after (hostOps0 (F := Ideal)) (fun b => m (c, b)) (Proc.devRef .tc main_v8) = _
    after_results <;> rfl
  exact congrFun e0 (ix2 h k)

/-- The second bias as a row. -/
theorem b2_at (k : Fin 512) : (V m c main_v12 : S1x512.Idx → EReal) (ix2 (0 : Fin 1) k) = ab2 m c (ix1 k) := by
  have e0 : (V m c main_v12 : S1x512.Idx → EReal) = shapeCast S1x512 (ab2 m c) shapeCasts_S512_S1x512 := by
    show StableHlo.after (hostOps0 (F := Ideal)) (fun b => m (c, b)) (Proc.devRef .tc main_v12) = _
    after_results <;> rfl
  refine (congrFun e0 (ix2 (0 : Fin 1) k)).trans ?_
  exact shapeCast_a_1a_apply (ab2 m c) shapeCasts_S512_S1x512 0 k

/-- The third layer's column of weights as a row. -/
theorem w3_at (k : Fin 512) : (V m c main_v15 : S1x512.Idx → EReal) (ix2 (0 : Fin 1) k) = aW3 m c (ix2 k (0 : Fin 1)) := by
  have e0 : (V m c main_v15 : S1x512.Idx → EReal)
      = shapeCast S1x512 (shapeCast S512 (aW3 m c) shapeCasts_S512x1_S512) shapeCasts_S512_S1x512 := by
    show StableHlo.after (hostOps0 (F := Ideal)) (fun b => m (c, b)) (Proc.devRef .tc main_v15) = _
    after_results <;> rfl
  refine (congrFun e0 (ix2 (0 : Fin 1) k)).trans ?_
  refine (shapeCast_a_1a_apply _ shapeCasts_S512_S1x512 0 k).trans ?_
  exact cast_a1_a (aW3 m c) shapeCasts_S512x1_S512 k

/-- The third bias as a [1, 1] row. -/
theorem b3_at : (V m c main_v13 : S1x1.Idx → EReal) (ix2 (0 : Fin 1) (0 : Fin 1)) = ab3 m c (ix1 (0 : Fin 1)) := by
  have e0 : (V m c main_v13 : S1x1.Idx → EReal) = shapeCast S1x1 (ab3 m c) shapeCasts_S1_S1x1 := by
    show StableHlo.after (hostOps0 (F := Ideal)) (fun b => m (c, b)) (Proc.devRef .tc main_v13) = _
    after_results <;> rfl
  refine (congrFun e0 (ix2 (0 : Fin 1) (0 : Fin 1))).trans ?_
  exact shapeCast_a_1a_apply (ab3 m c) shapeCasts_S1_S1x1 0 0

end Cert.Staged

end
-- ==== Proof.ScoreArray.lean ====
/-
  From tiles to the whole score array.

  The grid has 8 × 4 points; point (i, j) works on goal rows 16·i … 16·i + 15 and theorem rows 128·j … 128·j + 127 and
  writes the 16 × 128 tile of the output at rows 16·i, columns 128·j. The goal-side operands (g and G1) move with i, the
  theorem-side operands (t and T1) with j, and the six small operands stay whole. So entry (p, q) of the tile written
  at point (i, j) is the score of the pair (16·i + p, 128·j + q): the tile's first-layer values are the pair's, its
  weights and biases are the program's. The 32 tiles cover the [128, 512] array — entry (n, m) lies in the tile of
  point (n / 16, m / 128) — so after the call the array holds every pair's score.
-/
import proofs.«119318_j12000138625194_2_alg».proof.Proof.KernelTile
import proofs.«119318_j12000138625194_2_alg».proof.Proof.Staged

set_option maxRecDepth 16384

noncomputable section

namespace Cert.ScoreArray

open Cert.KernelIdeal Cert.KernelIdeal.Gen Idealize.ShloMosaic Idealize.ShloMosaic.ValueIdx Idealize.ShloMosaic.TcCoe
  Idealize.SL.Sem Cert.Mlp Cert.KernelTile Cert.Staged
open Idealize.ShloMosaic.Pipeline (Dat Cfg Window)

variable (m : (ℓ : Loc nD τ sig) → Buf (Elt Ideal) ℓ) (c : Dev nD)

/-- Every pair's score, as a [128, 512] array. -/
def scores : S128x512.Idx → EReal := fun i =>
  score (aG m c) (aT m c) (aW1 m c) (ab1 m c) (aW2 m c) (ab2 m c) (aW3 m c) (ab3 m c) (i 0) (i 1)

theorem scores_at (n : Fin 128) (k : Fin 512) :
    scores m c (ix2 n k) = score (aG m c) (aT m c) (aW1 m c) (ab1 m c) (aW2 m c) (ab2 m c) (aW3 m c) (ab3 m c) n k := rfl

/-- The layers after the first depend only on the values they are given. -/
theorem tail_congr {a a' : Fin 1024 → EReal} {W W' : Fin 1024 → Fin 512 → EReal} {b b' w w' : Fin 512 → EReal} {z z' : EReal}
    (ha : ∀ h, a h = a' h) (hW : ∀ h k, W h k = W' h k) (hb : ∀ k, b k = b' k) (hw : ∀ k, w k = w' k) (hz : z = z') :
    tail a W b w z = tail a' W' b' w' z' := by
  rw [funext ha, (funext fun h => funext (hW h) : W = W'), funext hb, funext hw, hz]

/-! ## The index maps over the grid -/

/-- The block index of each window at each grid point, relative to the output's: decided over the 32 points. -/
theorem idx_facts : ∀ t : Fin cfg0.N,
    win0_0.index t (0 : Fin 2) = win0_10.index t (0 : Fin 2) ∧ win0_0.index t (1 : Fin 2) = 0
    ∧ win0_1.index t (0 : Fin 2) = win0_10.index t (1 : Fin 2) ∧ win0_1.index t (1 : Fin 2) = 0
    ∧ win0_2.index t (0 : Fin 2) = win0_10.index t (0 : Fin 2) ∧ win0_2.index t (1 : Fin 2) = 0
    ∧ win0_3.index t (0 : Fin 2) = win0_10.index t (1 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) ≤ 7 ∧ win0_10.index t (1 : Fin 2) ≤ 3 :=
  (by decide +kernel : ∀ t : Fin grid0.N, _)

/-- Every tile position is some point's. -/
theorem idx_onto : ∀ (q0 : Fin 8) (q1 : Fin 4), ∃ t : Fin cfg0.N, win0_10.index t = ![q0.val, q1.val] :=
  (by decide +kernel : ∀ (q0 : Fin 8) (q1 : Fin 4), ∃ t : Fin grid0.N, win0_10.index t = ![q0.val, q1.val])

/-! ## Each input block, read where the output's tile says -/

/-- The goal tile: its row p is row n = 16·i + p of g. -/
theorem blk0_at (t : Fin cfg0.N) (p : Fin 16) (e : Fin 1024) (n : Fin 128) (hn : n.val = win0_10.index t (0 : Fin 2) * 16 + p.val) :
    iblk m c 0 t (ix2 p e) = aG m c (ix2 n e) := by
  have f := idx_facts t
  show V m c main_arg0 (((cfg0.win 0).blk t).view.emb (ix2 p e)) = aG m c (ix2 n e)
  rw [V_main_arg0]
  refine congrArg (aG m c) ?_
  funext a
  apply Fin.ext
  match a with
  | ⟨0, _⟩ => show win0_0.index t (0 : Fin 2) * 16 + 1 * p.val = n.val; omega
  | ⟨1, _⟩ => show win0_0.index t (1 : Fin 2) * 1024 + 1 * e.val = e.val; omega

/-- The theorem tile: its row q is row k = 128·j + q of t. -/
theorem blk1_at (t : Fin cfg0.N) (q : Fin 128) (e : Fin 1024) (k : Fin 512) (hk : k.val = win0_10.index t (1 : Fin 2) * 128 + q.val) :
    iblk m c 1 t (ix2 q e) = aT m c (ix2 k e) := by
  have f := idx_facts t
  show V m c main_arg1 (((cfg0.win 1).blk t).view.emb (ix2 q e)) = aT m c (ix2 k e)
  rw [V_main_arg1]
  refine congrArg (aT m c) ?_
  funext a
  apply Fin.ext
  match a with
  | ⟨0, _⟩ => show win0_1.index t (0 : Fin 2) * 128 + 1 * q.val = k.val; omega
  | ⟨1, _⟩ => show win0_1.index t (1 : Fin 2) * 1024 + 1 * e.val = e.val; omega

/-- The tile of G1: its row p is row n of G1. -/
theorem blk2_at (t : Fin cfg0.N) (p : Fin 16) (h : Fin 1024) (n : Fin 128) (hn : n.val = win0_10.index t (0 : Fin 2) * 16 + p.val) :
    iblk m c 2 t (ix2 p h) = (V m c main_v9 : S128x1024.Idx → EReal) (ix2 n h) := by
  have f := idx_facts t
  show V m c main_v9 (((cfg0.win 2).blk t).view.emb (ix2 p h)) = V m c main_v9 (ix2 n h)
  refine congrArg (V m c main_v9) ?_
  funext a
  apply Fin.ext
  match a with
  | ⟨0, _⟩ => show win0_2.index t (0 : Fin 2) * 16 + 1 * p.val = n.val; omega
  | ⟨1, _⟩ => show win0_2.index t (1 : Fin 2) * 1024 + 1 * h.val = h.val; omega

/-- The tile of T1: its row q is row k of T1. -/
theorem blk3_at (t : Fin cfg0.N) (q : Fin 128) (h : Fin 1024) (k : Fin 512) (hk : k.val = win0_10.index t (1 : Fin 2) * 128 + q.val) :
    iblk m c 3 t (ix2 q h) = (V m c main_v10 : S512x1024.Idx → EReal) (ix2 k h) := by
  have f := idx_facts t
  show V m c main_v10 (((cfg0.win 3).blk t).view.emb (ix2 q h)) = V m c main_v10 (ix2 k h)
  refine congrArg (V m c main_v10) ?_
  funext a
  apply Fin.ext
  match a with
  | ⟨0, _⟩ => show win0_3.index t (0 : Fin 2) * 128 + 1 * q.val = k.val; omega
  | ⟨1, _⟩ => show win0_3.index t (1 : Fin 2) * 1024 + 1 * h.val = h.val; omega

/-- Window 4's one block is its whole array. -/
theorem blk4_at (t : Fin cfg0.N) (i : Fin 1024) (j : Fin 1024) :
    iblk m c 4 t (ix2 i j) = (V m c main_v7 : S1024x1024.Idx → EReal) (ix2 i j) := by
  have f := idx_facts t
  show V m c main_v7 (((cfg0.win 4).blk t).view.emb (ix2 i j)) = V m c main_v7 (ix2 i j)
  refine congrArg (V m c main_v7) ?_
  funext a
  apply Fin.ext
  match a with
  | ⟨0, _⟩ => show win0_4.index t (0 : Fin 2) * 1024 + 1 * i.val = i.val; omega
  | ⟨1, _⟩ => show win0_4.index t (1 : Fin 2) * 1024 + 1 * j.val = j.val; omega

/-- Window 5's one block is its whole array. -/
theorem blk5_at (t : Fin cfg0.N) (i : Fin 1) (j : Fin 1024) :
    iblk m c 5 t (ix2 i j) = (V m c main_v11 : S1x1024.Idx → EReal) (ix2 i j) := by
  have f := idx_facts t
  show V m c main_v11 (((cfg0.win 5).blk t).view.emb (ix2 i j)) = V m c main_v11 (ix2 i j)
  refine congrArg (V m c main_v11) ?_
  funext a
  apply Fin.ext
  match a with
  | ⟨0, _⟩ => show win0_5.index t (0 : Fin 2) * 1 + 1 * i.val = i.val; omega
  | ⟨1, _⟩ => show win0_5.index t (1 : Fin 2) * 1024 + 1 * j.val = j.val; omega

/-- Window 6's one block is its whole array. -/
theorem blk6_at (t : Fin cfg0.N) (i : Fin 1024) (j : Fin 512) :
    iblk m c 6 t (ix2 i j) = (V m c main_v8 : S1024x512.Idx → EReal) (ix2 i j) := by
  have f := idx_facts t
  show V m c main_v8 (((cfg0.win 6).blk t).view.emb (ix2 i j)) = V m c main_v8 (ix2 i j)
  refine congrArg (V m c main_v8) ?_
  funext a
  apply Fin.ext
  match a with
  | ⟨0, _⟩ => show win0_6.index t (0 : Fin 2) * 1024 + 1 * i.val = i.val; omega
  | ⟨1, _⟩ => show win0_6.index t (1 : Fin 2) * 512 + 1 * j.val = j.val; omega

/-- Window 7's one block is its whole array. -/
theorem blk7_at (t : Fin cfg0.N) (i : Fin 1) (j : Fin 512) :
    iblk m c 7 t (ix2 i j) = (V m c main_v12 : S1x512.Idx → EReal) (ix2 i j) := by
  have f := idx_facts t
  show V m c main_v12 (((cfg0.win 7).blk t).view.emb (ix2 i j)) = V m c main_v12 (ix2 i j)
  refine congrArg (V m c main_v12) ?_
  funext a
  apply Fin.ext
  match a with
  | ⟨0, _⟩ => show win0_7.index t (0 : Fin 2) * 1 + 1 * i.val = i.val; omega
  | ⟨1, _⟩ => show win0_7.index t (1 : Fin 2) * 512 + 1 * j.val = j.val; omega

/-- Window 8's one block is its whole array. -/
theorem blk8_at (t : Fin cfg0.N) (i : Fin 1) (j : Fin 512) :
    iblk m c 8 t (ix2 i j) = (V m c main_v15 : S1x512.Idx → EReal) (ix2 i j) := by
  have f := idx_facts t
  show V m c main_v15 (((cfg0.win 8).blk t).view.emb (ix2 i j)) = V m c main_v15 (ix2 i j)
  refine congrArg (V m c main_v15) ?_
  funext a
  apply Fin.ext
  match a with
  | ⟨0, _⟩ => show win0_8.index t (0 : Fin 2) * 1 + 1 * i.val = i.val; omega
  | ⟨1, _⟩ => show win0_8.index t (1 : Fin 2) * 512 + 1 * j.val = j.val; omega

/-- Window 9's one block is its whole array. -/
theorem blk9_at (t : Fin cfg0.N) (i : Fin 1) (j : Fin 1) :
    iblk m c 9 t (ix2 i j) = (V m c main_v13 : S1x1.Idx → EReal) (ix2 i j) := by
  have f := idx_facts t
  show V m c main_v13 (((cfg0.win 9).blk t).view.emb (ix2 i j)) = V m c main_v13 (ix2 i j)
  refine congrArg (V m c main_v13) ?_
  funext a
  apply Fin.ext
  match a with
  | ⟨0, _⟩ => show win0_9.index t (0 : Fin 2) * 1 + 1 * i.val = i.val; omega
  | ⟨1, _⟩ => show win0_9.index t (1 : Fin 2) * 1 + 1 * j.val = j.val; omega

/-! ## What a point writes back -/

/-- The tile's first-layer values are those of the pair (n, k) it stands for. -/
theorem tilePre_eq (t : Fin cfg0.N) (p : Fin 16) (q : Fin 128) (n : Fin 128) (k : Fin 512)
    (hn : n.val = win0_10.index t (0 : Fin 2) * 16 + p.val) (hk : k.val = win0_10.index t (1 : Fin 2) * 128 + q.val) (h : Fin 1024) :
    tilePre (iblk m c 0 t) (iblk m c 1 t) (iblk m c 2 t) (iblk m c 3 t) (iblk m c 4 t) (iblk m c 5 t) p q h
      = pre (aG m c) (aT m c) (aW1 m c) (ab1 m c) n k h := by
  unfold tilePre pre
  simp only [fun e => blk0_at m c t p e n hn, fun e => blk1_at m c t q e k hk, blk2_at m c t p h n hn, blk3_at m c t q h k hk,
    blk4_at m c t, blk5_at m c t, W1m_at m c, G1_at m c, T1_at m c, b1_at m c]

/-- WHAT POINT t WRITES BACK is its tile of the score array. -/
theorem flushed_eq (t : Fin cfg0.N) :
    (dats m 0 c).flushed 10 t = ((cfg0.win 10).blk t).view.read (Elt Ideal) (scores m c) := by
  show (cfg0.win 10).cut (grid0.coords t) ((dats m 0 c).after 10 t) = _
  rw [after0_10]
  have f := idx_facts t
  funext j
  obtain ⟨p, q, rfl⟩ : ∃ (p : Fin 16) (q : Fin 128), (j : S16x128.Idx) = ix2 p q := ⟨j 0, j 1, eq_ix2 (n0 := 16) (n1 := 128) j⟩
  have hn : win0_10.index t (0 : Fin 2) * 16 + p.val < 128 := by have := p.isLt; omega
  have hk : win0_10.index t (1 : Fin 2) * 128 + q.val < 512 := by have := q.isLt; omega
  show out0_10 (iblk m c 0 t) (iblk m c 1 t) (iblk m c 2 t) (iblk m c 3 t) (iblk m c 4 t) (iblk m c 5 t) (iblk m c 6 t) (iblk m c 7 t)
      (iblk m c 8 t) (iblk m c 9 t) (ix2 p q) = scores m c (((cfg0.win 10).blk t).view.emb (ix2 p q))
  have hemb : ((cfg0.win 10).blk t).view.emb (ix2 p q)
      = ix2 (⟨win0_10.index t (0 : Fin 2) * 16 + p.val, hn⟩ : Fin 128) (⟨win0_10.index t (1 : Fin 2) * 128 + q.val, hk⟩ : Fin 512) := by
    funext a
    apply Fin.ext
    match a with
    | ⟨0, _⟩ => show win0_10.index t (0 : Fin 2) * 16 + 1 * p.val = win0_10.index t (0 : Fin 2) * 16 + p.val; omega
    | ⟨1, _⟩ => show win0_10.index t (1 : Fin 2) * 128 + 1 * q.val = win0_10.index t (1 : Fin 2) * 128 + q.val; omega
  rw [hemb, scores_at]
  refine (out_at (iblk m c 0 t) (iblk m c 1 t) (iblk m c 2 t) (iblk m c 3 t) (iblk m c 4 t) (iblk m c 5 t) (iblk m c 6 t) (iblk m c 7 t)
    (iblk m c 8 t) (iblk m c 9 t) p q).trans ?_
  unfold tileScore score
  refine tail_congr (tilePre_eq m c t p q _ _ rfl rfl) (fun h k => ?_) (fun k => ?_) (fun k => ?_) ?_
  · exact (blk6_at m c t h k).trans (W2_at m c h k)
  · exact (blk7_at m c t 0 k).trans (b2_at m c k)
  · exact (blk8_at m c t 0 k).trans (w3_at m c k)
  · exact (blk9_at m c t 0 0).trans (b3_at m c)

/-! ## The cover -/

/-- An index of the array is in point t's tile iff each coordinate is in the tile's range on its axis. -/
theorem mem_blk (t : Fin cfg0.N) (i : S128x512.Idx) :
    i ∈ ((cfg0.win 10).blk t).view.set
      ↔ ∀ a : Fin 2, win0_10.index t a * S16x128.size a ≤ (i a).val ∧ (i a).val < win0_10.index t a * S16x128.size a + S16x128.size a := by
  show i ∈ ((View.whole main_v16).slice (win0_10.rect t)).set ↔ _
  rw [View.set_slice_whole, Rect.mem_set_unit]
  exact Iff.rfl

/-- Every entry of the array lies in some point's tile. -/
theorem cover (i : S128x512.Idx) : ∃ t : Fin cfg0.N, (cfg0.win 10).flush t = true ∧ i ∈ ((cfg0.win 10).blk t).view.set := by
  have hi0 : (i 0).val < 128 := (i 0).isLt
  have hi1 : (i 1).val < 512 := (i 1).isLt
  obtain ⟨t, ht⟩ := idx_onto ⟨(i 0).val / 16, by omega⟩ ⟨(i 1).val / 128, by omega⟩
  have q0 : win0_10.index t (0 : Fin 2) = (i 0).val / 16 := congrFun ht 0
  have q1 : win0_10.index t (1 : Fin 2) = (i 1).val / 128 := congrFun ht 1
  refine ⟨t, flush0_10 t, ?_⟩
  rw [mem_blk]
  intro a
  match a with
  | ⟨0, _⟩ => show win0_10.index t (0 : Fin 2) * 16 ≤ (i 0).val ∧ (i 0).val < win0_10.index t (0 : Fin 2) * 16 + 16; omega
  | ⟨1, _⟩ => show win0_10.index t (1 : Fin 2) * 128 ≤ (i 1).val ∧ (i 1).val < win0_10.index t (1 : Fin 2) * 128 + 128; omega

/-- THE ARRAY after the call: every pair's score. -/
theorem final : (dats m 0 c).arrAt 10 cfg0.N = scores m c :=
  (dats m 0 c).arrAt_eq_of_cover 10 (scores m c) (fun t _ => flushed_eq m c t) cover

end Cert.ScoreArray

end
-- ==== Proof.KernelRun.lean ====
/-
  The kernel program's run, with its result named.

  After the call the program gives the [128, 512] score array a trailing axis of extent one: entry (n, k, 0) of the
  result is entry (n, k) of the array, the score of the pair (n, k). Nothing after the call writes an argument, and
  the call itself only reads them, so every argument ends as it was launched.
-/
import proofs.«119318_j12000138625194_2_alg».proof.Proof.ScoreArray
import Idealize.ShloMosaic.Lib.StableHlo.Run

set_option maxRecDepth 16384

noncomputable section

namespace Cert.KernelRun

open Cert.KernelIdeal Cert.KernelIdeal.Gen Idealize.ShloMosaic Idealize.ShloMosaic.TcCoe Idealize.ShloMosaic.ValueIdx
  Idealize.ShloMosaic.StableHlo Idealize.SL.Sem Cert.Mlp Cert.Staged Cert.ScoreArray

variable (m : (ℓ : Loc nD τ sig) → Buf (Elt Ideal) ℓ) (ρ : Dev nD → PrngReg)

/-- The result: every pair's score, as a [128, 512, 1] array. -/
def result (c : Dev nD) : S128x512x1.Idx → EReal := fun i =>
  score (aG m c) (aT m c) (aW1 m c) (ab1 m c) (aW2 m c) (ab2 m c) (aW3 m c) (ab3 m c) (i 0) (i 1)

theorem result_at (c : Dev nD) (n : Fin 128) (k : Fin 512) (u : Fin 1) :
    result m c (ix3 n k u) = score (aG m c) (aT m c) (aW1 m c) (ab1 m c) (aW2 m c) (ab2 m c) (aW3 m c) (ab3 m c) n k := rfl

/-- What the line after the call leaves in the result buffer. -/
theorem tail_eq (c : Dev nD) : Pipeline.afterTail₀ cfgs (dats m) 0 (V0 m) [hostOps1] c main_v17 = result m c := by
  have hw : Pipeline.withArrays spec0 c (V0 m c) (fun w => (dats m 0 c).arrAt w cfg0.N) (Proc.devRef .tc main_v16) = scores m c :=
    (Pipeline.withArrays_arr spec0 launch0.win.arr_inj c _ _ 10).trans (final m c)
  unfold Pipeline.afterTail₀
  show StableHlo.after (hostOps1 (F := Ideal)) _ (Proc.devRef .tc main_v17) = _
  after_results
  refine (congrArg (broadcastInDim S128x512x1 ![0, 1] bcast_S128x512_S128x512x1_0_1) hw).trans ?_
  funext i
  obtain ⟨n, k, u, rfl⟩ : ∃ (n : Fin 128) (k : Fin 512) (u : Fin 1), i = ix3 n k u := ⟨i 0, i 1, i 2, eq_ix3 i⟩
  refine (broadcastInDim_apply _ bcast_S128x512_S128x512x1_0_1 (scores m c) (ix3 n k u) (ix2 n k) (fun a => ?_)).trans rfl
  match a with
  | ⟨0, _⟩ => show n.val = if (128 : ℕ) = 1 then 0 else n.val; rw [if_neg (by decide)]
  | ⟨1, _⟩ => show k.val = if (512 : ℕ) = 1 then 0 else k.val; rw [if_neg (by decide)]

/-- Every weakly fair execution of the kernel program ends with the result holding the scores and the arguments
    unchanged. -/
theorem run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelRun

end
-- ==== Proof.lean ====
/-
  The kernel program and its reference compute the same scores.

  Both programs take a matrix g of 128 goal rows and a matrix t of 512 theorem rows, each row of 1024 numbers, and
  the weights and biases of a three-layer perceptron, and return, for every pair (n, m), the perceptron's value on
  the 3072 numbers  [ g(n, ·) | t(m, ·) | g(n, ·)·t(m, ·) ].  The reference builds those 3072 numbers for all pairs
  and contracts them with the whole first weight matrix. The kernel program never builds them: since the first
  layer is linear, its value on the three runs is the sum of g(n, ·) against the first third of the weight rows,
  t(m, ·) against the second third, and the products against the last third; it computes the first two once for all
  rows before the call and the third inside the call, tile by tile, 16 goal rows against 128 theorem rows at a time.
  Read on the extended reals, where every change of float format is the identity, the two first-layer values differ
  only in how one sum of 3072 terms is grouped, and addition of extended reals is commutative and associative, so
  they are equal for all inputs; the two later layers are then the same function of equal values.

  The frames of the two kernel programs are the generated ones, and the reference's is its generated run with the
  result dropped. The kernel program's idealization rewrote nothing, so there is nothing to preserve.
-/
import proofs.«119318_j12000138625194_2_alg».proof.Defs
import proofs.«119318_j12000138625194_2_alg».proof.Proof.Gen.Kernel
import proofs.«119318_j12000138625194_2_alg».proof.Proof.Gen.Kernel.Skeleton
import proofs.«119318_j12000138625194_2_alg».proof.Proof.Gen.Kernel.Launch
import proofs.«119318_j12000138625194_2_alg».proof.Proof.Gen.Kernel.Points
import proofs.«119318_j12000138625194_2_alg».proof.Proof.Gen.Kernel.Frame
import proofs.«119318_j12000138625194_2_alg».proof.Proof.Gen.KernelIdeal
import proofs.«119318_j12000138625194_2_alg».proof.Proof.Gen.KernelIdeal.Skeleton
import proofs.«119318_j12000138625194_2_alg».proof.Proof.Gen.KernelIdeal.Launch
import proofs.«119318_j12000138625194_2_alg».proof.Proof.Gen.KernelIdeal.Points
import proofs.«119318_j12000138625194_2_alg».proof.Proof.Gen.KernelIdeal.Frame
import proofs.«119318_j12000138625194_2_alg».proof.Proof.Gen.ReferenceIdeal
import proofs.«119318_j12000138625194_2_alg».proof.Proof.Gen.Pre_finite_inputs
import proofs.«119318_j12000138625194_2_alg».proof.Proof.Gen.ReferenceIdeal.Run
import proofs.«119318_j12000138625194_2_alg».proof.Proof.Gen.ReferenceIdeal.Read
import proofs.«119318_j12000138625194_2_alg».proof.Proof.RefScore
import proofs.«119318_j12000138625194_2_alg».proof.Proof.KernelRun
import Idealize.ShloMosaic.Adequacy
import Idealize.ShloMosaic.Init

noncomputable section

namespace Cert.Proof

open Idealize.ShloMosaic Idealize.ShloMosaic.ValueIdx Idealize.SL.Sem

/-- The kernel program as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel program and its reading on the extended reals. -/
theorem preserves : Cert.preserves_Kernel_KernelIdeal := trivial

/-- From memories that agree on the arguments, both programs end with the result at every pair's score. -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v21_eq, h0, h1, h2, h3, h4, h5, h6, h7]
  funext i
  obtain ⟨n, k, u, rfl⟩ : ∃ (n : Fin 128) (k : Fin 512) (u : Fin 1), i = ix3 n k u := ⟨i 0, i 1, i 2, eq_ix3 i⟩
  exact Cert.RefScore.ref_score _ _ _ _ _ _ _ _ n k u

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
